-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x1x512 : Shape := ⟨3, ![16, 1, 512]⟩
abbrev S512x1024 : Shape := ⟨2, ![512, 1024]⟩
abbrev S512x512 : Shape := ⟨2, ![512, 512]⟩
abbrev S1x1x512 : Shape := ⟨3, ![1, 1, 512]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x1x512 : S_.BroadcastsInDim S16x1x512 (![] : Fin 0 → Fin S16x1x512.rank)
  reducesTo_S16x1x512_S_d0_1_2 : S16x1x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512x512 : S_.BroadcastsInDim S512x512 (![] : Fin 0 → Fin S512x512.rank)
  reducesTo_S512x512_S_d0_1 : S512x512.ReducesTo [0, 1] S_
  bcast_S_S1x1x512 : S_.BroadcastsInDim S1x1x512 (![] : Fin 0 → Fin S1x1x512.rank)
  reducesTo_S1x1x512_S_d0_1_2 : S1x1x512.ReducesTo [0, 1, 2] S_

variable [Facts]

def fn_part1 {F : FTy → Type} [FloatOps F] (main_arg4 : FVec F S1x1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x1x512 .f32 := Host.absf main_arg4
  let main_cst_6 : FVec F S_ .f32 := constant S_ .f32 0x7F800000#32
  let main_v20 : FVec F S1x1x512 .f32 := broadcastInDim S1x1x512 ![] bcast_S_S1x1x512 main_cst_6
  let main_v21 : IVec S1x1x512 1 := cmpf .olt main_v19 main_v20
  let main_c_7 : IVec S_ 1 := constantI S_ 1 1#1
  let main_v22 : IVec S_ 1 := (fun x v => Host.reduce IntOp.andi x v reducesTo_S1x1x512_S_d0_1_2 h_S_) main_v21 main_c_7
  let main_v23 : IVec S_ 1 := andi main_v18 main_v22
  main_v23

def fn {F : FTy → Type} [FloatOps F] (main_arg0 : FVec F S16x4096x1024 .f32) (main_arg1 : FVec F S16x1x512 .f32) (main_arg2 : FVec F S512x1024 .f32) (main_arg3 : FVec F S512x512 .f32) (main_arg4 : FVec F S1x1x512 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x1x512 .f32 := Host.absf main_arg1
  let main_cst_0 : FVec F S_ .f32 := constant S_ .f32 0x7F800000#32
  let main_v5 : FVec F S16x1x512 .f32 := broadcastInDim S16x1x512 ![] bcast_S_S16x1x512 main_cst_0
  let main_v6 : IVec S16x1x512 1 := cmpf .olt main_v4 main_v5
  let main_c_1 : IVec S_ 1 := constantI S_ 1 1#1
  let main_v7 : IVec S_ 1 := (fun x v => Host.reduce IntOp.andi x v reducesTo_S16x1x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S16x4096x1024 : Shape := ⟨3, ![16, 4096, 1024]⟩
abbrev S16x1x512 : Shape := ⟨3, ![16, 1, 512]⟩
abbrev S512x1024 : Shape := ⟨2, ![512, 1024]⟩
abbrev S512x512 : Shape := ⟨2, ![512, 512]⟩
abbrev S1x1x512 : Shape := ⟨3, ![1, 1, 512]⟩
abbrev S16x4096x512 : Shape := ⟨3, ![16, 4096, 512]⟩
abbrev S16x1x4096 : Shape := ⟨3, ![16, 1, 4096]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x1024 : Shape := ⟨2, ![1024, 1024]⟩
abbrev S1024x512 : Shape := ⟨2, ![1024, 512]⟩
abbrev S1x512 : Shape := ⟨2, ![1, 512]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S16x1x512, .f32⟩
  | .hbm, ⟨2, _⟩ => ⟨S512x1024, .f32⟩
  | .hbm, ⟨3, _⟩ => ⟨S512x512, .f32⟩
  | .hbm, ⟨4, _⟩ => ⟨S1x1x512, .f32⟩
  | .hbm, ⟨5, _⟩ => ⟨S16x4096x512, .f32⟩
  | .hbm, ⟨6, _⟩ => ⟨S16x1x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x512, .f32⟩
  | .local _ .vmem, ⟨3, _⟩ => ⟨S1x1x512, .f32⟩
  | .local _ .vmem, ⟨4, _⟩ => ⟨S512x1024, .f32⟩
  | .local _ .vmem, ⟨5, _⟩ => ⟨S512x512, .f32⟩
  | .local _ .vmem, ⟨6, _⟩ => ⟨S1x1x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1x1024, .f32⟩
  | .local _ .vmem, ⟨10, _⟩ => ⟨S1x1x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S1024x1024_S512x1024_S1024x512_1_1_0_0_n_n_wf : DotDims.WF S1024x1024 S512x1024 S1024x512 [1] [1] [0] [0] [] []
  dot_S1x512_S512x512_S1x512_1_1_0_0_n_n_wf : DotDims.WF S1x512 S512x512 S1x512 [1] [1] [0] [0] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S1x1x512.size a
  hwx0_4 : ∀ i : grid0.Coords, EltTy.bits .f32 = 32 ∨ (Rect.block (s := S1x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S16x4096x512.size a
  hwx0_5 : ∀ i : grid0.Coords, EltTy.bits .f32 = 32 ∨ (Rect.block (s := S16x4096x512) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S16x1x4096.size a
  hwx0_6 : ∀ i : grid0.Coords, EltTy.bits .f32 = 32 ∨ (Rect.block (s := S16x1x4096) S1x1x1024.size (cc0_transform_6 i) (hinb0_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x1x512 : Shape := ⟨3, ![16, 1, 512]⟩
abbrev S512x1024 : Shape := ⟨2, ![512, 1024]⟩
abbrev S512x512 : Shape := ⟨2, ![512, 512]⟩
abbrev S1x1x512 : Shape := ⟨3, ![1, 1, 512]⟩
abbrev S16x4096x512 : Shape := ⟨3, ![16, 4096, 512]⟩
abbrev S_ : Shape := ⟨0, ![]⟩
abbrev S1x512 : Shape := ⟨2, ![1, 512]⟩
abbrev S16x4096x1 : Shape := ⟨3, ![16, 4096, 1]⟩
abbrev S16x1x4096 : Shape := ⟨3, ![16, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1x512, .f32⟩
  | .hbm, ⟨2, _⟩ => ⟨S512x1024, .f32⟩
  | .hbm, ⟨3, _⟩ => ⟨S512x512, .f32⟩
  | .hbm, ⟨4, _⟩ => ⟨S1x1x512, .f32⟩
  | .hbm, ⟨5, _⟩ => ⟨S16x4096x512, .f32⟩
  | .hbm, ⟨6, _⟩ => ⟨S16x1x512, .f32⟩
  | .hbm, ⟨7, _⟩ => ⟨S16x4096x512, .f32⟩
  | .hbm, ⟨8, _⟩ => ⟨S16x4096x512, .f32⟩
  | .hbm, ⟨9, _⟩ => ⟨S16x4096x512, .f32⟩
  | .hbm, ⟨10, _⟩ => ⟨S_, .f32⟩
  | .hbm, ⟨11, _⟩ => ⟨S1x512, .f32⟩
  | .hbm, ⟨12, _⟩ => ⟨S16x4096x1, .f32⟩
  | .hbm, ⟨13, _⟩ => ⟨S16x1x4096, .f32⟩
  | .hbm, ⟨14, _⟩ => ⟨S16x1x4096, .f32⟩
  | .hbm, ⟨15, _⟩ => ⟨S_, .f32⟩
  | .hbm, ⟨16, _⟩ => ⟨S16x1x4096, .f32⟩
  | .hbm, ⟨17, _⟩ => ⟨S16x1x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S16x1x512_S16x4096x512_0_1_2 : S16x1x512.BroadcastsInDim S16x4096x512 (![0, 1, 2] : Fin 3 → Fin S16x4096x512.rank)
  reducesTo_S1x1x512_S1x512_d0 : S1x1x512.ReducesTo [0] S1x512
  h_S_ : 0 < S_.numel
  transposes_S16x4096x1_S16x1x4096_0_2_1 : S16x4096x1.Transposes [0, 2, 1] S16x1x4096
  bcast_S_S16x1x4096 : S_.BroadcastsInDim S16x1x4096 (![] : Fin 0 → Fin S16x1x4096.rank)
  dot_S16x4096x1024_S512x1024_S16x4096x512_2_1_01_0_n_n_wf : DotDims.WF S16x4096x1024 S512x1024 S16x4096x512 [2] [1] [0, 1] [0] [] []
  dot_S16x1x512_S512x512_S16x1x512_2_1_01_0_n_n_wf : DotDims.WF S16x1x512 S512x512 S16x1x512 [2] [1] [0, 1] [0] [] []
  dot_S16x4096x512_S1x512_S16x4096x1_2_1_01_0_n_n_wf : DotDims.WF S16x4096x512 S1x512 S16x4096x1 [2] [1] [0, 1] [0] [] []

variable [Facts₀]

def dot_S16x4096x1024_S512x1024_S16x4096x512_2_1_01_0_n_n : DotDims S16x4096x1024 S512x1024 S16x4096x512 where
  lhsContracting := [2]
  rhsContracting := [1]
  lhsNonContracting := [0, 1]
  rhsNonContracting := [0]
  lhsBatch := []
  rhsBatch := []
  wf := dot_S16x4096x1024_S512x1024_S16x4096x512_2_1_01_0_n_n_wf
def dot_S16x1x512_S512x512_S16x1x512_2_1_01_0_n_n : DotDims S16x1x512 S512x512 S16x1x512 where
  lhsContracting := [2]
  rhsContracting := [1]
  lhsNonContracting := [0, 1]
  rhsNonContracting := [0]
  lhsBatch := []
  rhsBatch := []
  wf := dot_S16x1x512_S512x512_S16x1x512_2_1_01_0_n_n_wf
def dot_S16x4096x512_S1x512_S16x4096x1_2_1_01_0_n_n : DotDims S16x4096x512 S1x512 S16x4096x1 where
  lhsContracting := [2]
  rhsContracting := [1]
  lhsNonContracting := [0, 1]
  rhsNonContracting := [0]
  lhsBatch := []
  rhsBatch := []
  wf := dot_S16x4096x512_S1x512_S16x4096x1_2_1_01_0_n_n_wf

class Facts : Prop extends Facts₀ where

variable [Facts]
-- ==== Proof.Spec.lean ====
/-
  Additive attention scores, stated once over the extended reals.

  For a batch `b`, a position `n` and a hidden unit `h`:
    * the projected feature   `projF x wf b n h = ∑ k, x (b, n, k) * wf (h, k)`   (a row of `x` against a row of `wf`),
    * the projected query     `projQ q wq b h   = ∑ k, q (b, 0, k) * wq (h, k)`,
    * the hidden activation   `hidden … b n h   = tanh (projF … b n h + projQ … b h)`,
    * the score               `score … b n      = ∑ h, v (0, 0, h) * hidden … b n h`,
    * the clipped logit       `logit … b n      = 10 * tanh (score … b n)`.
  The two results are the array of projected features and the array of clipped logits.
  Everything is over literal extents: 16 batches, 4096 positions, 1024 feature channels, 512 hidden units.
-/
import Idealize.ShloMosaic.PureOps.Ideal
import Idealize.ShloMosaic.Lib.ValueIdx

noncomputable section

open scoped BigOperators

namespace Cert.AdditiveAttention

open Idealize.ShloMosaic Idealize.ShloMosaic.ValueIdx

/-- The feature array `[16, 4096, 1024]`. -/
abbrev Feat : Type := (⟨3, ![16, 4096, 1024]⟩ : Shape).Idx → EReal
/-- The query array `[16, 1, 512]`. -/
abbrev Query : Type := (⟨3, ![16, 1, 512]⟩ : Shape).Idx → EReal
/-- The feature weights `[512, 1024]`. -/
abbrev WFeat : Type := (⟨2, ![512, 1024]⟩ : Shape).Idx → EReal
/-- The query weights `[512, 512]`. -/
abbrev WQuery : Type := (⟨2, ![512, 512]⟩ : Shape).Idx → EReal
/-- The scoring vector `[1, 1, 512]`. -/
abbrev ScoreVec : Type := (⟨3, ![1, 1, 512]⟩ : Shape).Idx → EReal

/-- The projected feature: row `(b, n)` of the features against row `h` of the feature weights. -/
def projF (x : Feat) (wf : WFeat) (b : Fin 16) (n : Fin 4096) (h : Fin 512) : EReal :=
  ∑ k : Fin 1024, x (ix3 b n k) * wf (ix2 h k)

/-- The projected query: the one query row of batch `b` against row `h` of the query weights. -/
def projQ (q : Query) (wq : WQuery) (b : Fin 16) (h : Fin 512) : EReal :=
  ∑ k : Fin 512, q (ix3 b (0 : Fin 1) k) * wq (ix2 h k)

/-- The hidden activation. -/
def hidden (x : Feat) (q : Query) (wf : WFeat) (wq : WQuery) (b : Fin 16) (n : Fin 4096) (h : Fin 512) : EReal :=
  Ideal.tanh (projF x wf b n h + projQ q wq b h)

/-- The score: the scoring vector against the hidden activations of position `(b, n)`. -/
def score (x : Feat) (q : Query) (wf : WFeat) (wq : WQuery) (v : ScoreVec) (b : Fin 16) (n : Fin 4096) : EReal :=
  ∑ h : Fin 512, v (ix3 (0 : Fin 1) (0 : Fin 1) h) * hidden x q wf wq b n h

/-- The clipped logit: ten times the hyperbolic tangent of the score (the literal is the float `10.0`). -/
def logit (x : Feat) (q : Query) (wf : WFeat) (wq : WQuery) (v : ScoreVec) (b : Fin 16) (n : Fin 4096) : EReal :=
  Ideal.ofBits .f32 0x41200000#32 * Ideal.tanh (score x q wf wq v b n)

/-- The first result, `[16, 4096, 512]`: the projected features. -/
def projected (x : Feat) (wf : WFeat) : (⟨3, ![16, 4096, 512]⟩ : Shape).Idx → EReal :=
  fun i => projF x wf (i 0) (i 1) (i 2)

/-- The second result, `[16, 1, 4096]`: the clipped logits, one row per batch. -/
def logits (x : Feat) (q : Query) (wf : WFeat) (wq : WQuery) (v : ScoreVec) : (⟨3, ![16, 1, 4096]⟩ : Shape).Idx → EReal :=
  fun i => logit x q wf wq v (i 0) (i 2)

end Cert.AdditiveAttention

end
-- ==== Proof.RefSpec.lean ====
/-
  The reference program computes the additive-attention specification.

  Its first result is the host contraction of the features with the feature weights, which at an index `(b, n, h)` is
  the sum over the channel `k` of `x (b, n, k) * wf (h, k)`: the projected feature.  Its second result composes the same
  contraction, the query's contraction broadcast over the positions, a hyperbolic tangent, a contraction with the scoring
  vector (which the program first sums over its leading axis of extent one: `0 + v`), a transpose that swaps the unit axis
  with the position axis, a second hyperbolic tangent and the product with the constant ten.  The only algebra is
  `0 + a = a` and the commutativity of a product on the extended reals.
-/
import proofs.«111099_j21406117003362_1_alg».proof.Proof.Gen.ReferenceIdeal.Read
import proofs.«111099_j21406117003362_1_alg».proof.Proof.Spec

noncomputable section

open scoped BigOperators

namespace Cert.ReferenceIdeal.Attention

open Cert.ReferenceIdeal Cert.ReferenceIdeal.Gen Cert.ReferenceIdeal.Read Cert.AdditiveAttention
open Idealize.ShloMosaic Idealize.ShloMosaic.ValueIdx

variable (x : (⟨S16x4096x1024, .f32⟩ : BufTy).Contents (Elt Ideal)) (q : (⟨S16x1x512, .f32⟩ : BufTy).Contents (Elt Ideal))
  (wf : (⟨S512x1024, .f32⟩ : BufTy).Contents (Elt Ideal)) (wq : (⟨S512x512, .f32⟩ : BufTy).Contents (Elt Ideal))
  (v : (⟨S1x1x512, .f32⟩ : BufTy).Contents (Elt Ideal))

/-- The feature contraction at `(b, n, h)` is the projected feature. -/
theorem feat_apply (i : S16x4096x512.Idx) : val_main_v0 (F := Ideal) x wf i = projF x wf (i 0) (i 1) (i 2) := by
  rw [val_main_v0_apply]
  unfold projF
  refine Finset.sum_congr rfl fun k _ => ?_
  have el : lidx_main_v0 i k = ix3 (i 0) (i 1) k := funext fun a => by
    match a with | ⟨0, _⟩ => rfl | ⟨1, _⟩ => rfl | ⟨2, _⟩ => rfl
  have er : ridx_main_v0 i k = ix2 (i 2) k := funext fun a => by
    match a with | ⟨0, _⟩ => rfl | ⟨1, _⟩ => rfl
  rw [el, er]
  rfl

/-- The reference's first result is the array of projected features. -/
theorem feat_eq : val_main_v0 (F := Ideal) x wf = projected x wf := funext fun i => feat_apply x wf i

/-- The query contraction, broadcast over the positions, at `(b, n, h)` is the projected query of batch `b`. -/
theorem query_apply (i : S16x4096x512.Idx) : val_main_v2 (F := Ideal) q wq i = projQ q wq (i 0) (i 2) := by
  rw [val_main_v2_apply, val_main_v1_apply]
  unfold projQ
  refine Finset.sum_congr rfl fun k _ => ?_
  have el : lidx_main_v1 (idx_main_v2 i) k = ix3 (i 0) (0 : Fin 1) k := funext fun a => by
    match a with | ⟨0, _⟩ => rfl | ⟨1, _⟩ => rfl | ⟨2, _⟩ => rfl
  have er : ridx_main_v1 (idx_main_v2 i) k = ix2 (i 2) k := funext fun a => by
    match a with | ⟨0, _⟩ => rfl | ⟨1, _⟩ => rfl
  rw [el, er]
  rfl

/-- The hyperbolic tangent of their sum is the hidden activation. -/
theorem hidden_apply (i : S16x4096x512.Idx) :
    val_main_v4 (F := Ideal) x q wf wq i = hidden x q wf wq (i 0) (i 1) (i 2) := by
  rw [val_main_v4_apply, val_main_v3_apply, feat_apply, query_apply]
  rfl

/-- The scoring vector summed over its leading axis of extent one is the scoring vector: `0 + v`. -/
theorem scorevec_apply (u : Fin 1) (h : Fin 512) : val_main_v5 (F := Ideal) v (ix2 u h) = v (ix3 (0 : Fin 1) u h) := by
  rw [val_main_v5_apply, val_main_cst_apply, Fin.sum_univ_one]
  show Ideal.ofBits .f32 0x00000000#32 + _ = _
  rw [Ideal.ofBits_zero_f32, zero_add]
  exact congrArg v (funext fun a => by match a with | ⟨0, _⟩ => rfl | ⟨1, _⟩ => rfl | ⟨2, _⟩ => rfl)

/-- The contraction with the scoring vector at `(b, n, 0)` is the score. -/
theorem score_apply (i : S16x4096x1.Idx) : val_main_v6 (F := Ideal) x q wf wq v i = score x q wf wq v (i 0) (i 1) := by
  rw [val_main_v6_apply]
  unfold score
  refine Finset.sum_congr rfl fun k _ => ?_
  have hi2 : (i 2).val < 1 := (i 2).isLt
  have e1 : val_main_v4 (F := Ideal) x q wf wq (lidx_main_v6 i k) = hidden x q wf wq (i 0) (i 1) k :=
    hidden_apply x q wf wq (lidx_main_v6 i k)
  have er : ridx_main_v6 i k = ix2 (0 : Fin 1) k := funext fun a => by
    match a with
    | ⟨0, _⟩ => exact Fin.ext (by show (i 2).val = 0; omega)
    | ⟨1, _⟩ => rfl
  have e2 : val_main_v5 (F := Ideal) v (ridx_main_v6 i k) = v (ix3 (0 : Fin 1) (0 : Fin 1) k) := by
    rw [er]; exact scorevec_apply v 0 k
  rw [e1, e2]
  exact mul_comm _ _

/-- The reference's second result is the array of clipped logits. -/
theorem logits_eq : val_main_v10 (F := Ideal) x q wf wq v = logits x q wf wq v := by
  funext i
  rw [val_main_v10_apply, val_main_v9_apply, val_main_cst_0_apply, val_main_v8_apply, val_main_v7_apply, score_apply]
  rfl

end Cert.ReferenceIdeal.Attention

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmulNT.lean ====
/-
  A matrix product of an `[M, K]` array by an `[N, K]` array, contracting the LAST axis of both, read at `(p, q)`:
  the sum over `k` of the left operand at `(p, k)` times the right operand at `(q, k)` — the inner product of row `p`
  of the left operand and row `q` of the right.
-/
import Idealize.ShloMosaic.PureOps.Ideal
import Idealize.ShloMosaic.PureOps.Ideal.Laws
import Idealize.ShloMosaic.Lib.ValueIdx
import proofs.«111099_j21406117003362_1_alg».proof.Proof.LibDotSum

noncomputable section

open scoped BigOperators

namespace Idealize.ShloMosaic.LibMatmulNT

open Idealize.ShloMosaic Idealize.ShloMosaic.ValueIdx

/-- The contraction sum of an `[M, K] × [N, K]` product at `(p, q)`, over the contracted coordinate.  The two facts
    about the free axes (`hl0`, `hr0`: the left operand's row is the result's row, the right operand's row the result's
    column) are read off a program's literal dimension numbers. -/
theorem contr_sum {M K N : Nat} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (x : (⟨2, ![M, K]⟩ : Shape).Idx → EReal) (y : (⟨2, ![N, K]⟩ : Shape).Idx → EReal) (p : Fin M) (q : Fin N) :
    ∑ c : D.contr.Idx, x (D.lhsIdx (ix2 p q) c) * y (D.rhsIdx (ix2 p q) c) = ∑ k : Fin K, x (ix2 p k) * y (ix2 q k) := by
  refine LibDotSum.sum_single D K hr hs x y (ix2 p q) (fun k => x (ix2 p k)) (fun k => y (ix2 q k)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k

/-- A kernel's matrix product into a zero accumulator, at `(p, q)`. -/
theorem matmul_zero_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) :=
  (Ideal.matmul_constant_zero_apply D prec x y (ix2 p q)).trans (contr_sum D hr hs hlc hrc hl0 hr0 x y p q)

/-- The host's `dot_general` of the same shape, at `(p, q)`. -/
theorem dotGeneral_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    Host.dotGeneral D prec x y (ix2 p q) = ∑ k : Fin K, x (ix2 p k) * y (ix2 q k) := by
  simp only [Host.dotGeneral]
  rw [Ideal.dotGeneral_apply]
  exact contr_sum D hr hs hlc hrc hl0 hr0 x y p q

end Idealize.ShloMosaic.LibMatmulNT

end
-- ==== Proof.KernelPayload.lean ====
/-
  The kernel body's two stored values, read at an index, at the ideal instance.

  At a grid point the body holds five blocks: a `[1, 1024, 1024]` block of features, the batch's `[1, 1, 512]` query row,
  and the whole weight arrays and scoring vector.  Changes of float format are the identity on the extended reals and
  each matrix product contracts the LAST axis of both operands into a zero accumulator, so:
    * the first stored value at `(0, p, h)` is the inner product of feature row `p` with weight row `h`;
    * the second at `(0, 0, p)` is ten times the hyperbolic tangent of the scoring vector's inner product with the
      hidden row of position `p`, whose entry `h` is the hyperbolic tangent of that feature product plus the inner
      product of the query row with query-weight row `h` (one row, broadcast over the positions).
-/
import proofs.«111099_j21406117003362_1_alg».proof.Proof.Gen.KernelIdeal.Skeleton
import proofs.«111099_j21406117003362_1_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Attention

open Cert.KernelIdeal Cert.KernelIdeal.Gen Idealize.ShloMosaic Idealize.ShloMosaic.ValueIdx

/-! ## The three products' free axes: the left operand's row is the result's row, the right operand's row its column -/

theorem dotF_l0 (j : S1024x512.Idx) (c : dot_S1024x1024_S512x1024_S1024x512_1_1_0_0_n_n.contr.Idx) :
    (dot_S1024x1024_S512x1024_S1024x512_1_1_0_0_n_n.lhsIdx j c 0).val = (j 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem dotF_r0 (j : S1024x512.Idx) (c : dot_S1024x1024_S512x1024_S1024x512_1_1_0_0_n_n.contr.Idx) :
    (dot_S1024x1024_S512x1024_S1024x512_1_1_0_0_n_n.rhsIdx j c 0).val = (j 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem dotQ_l0 (j : S1x512.Idx) (c : dot_S1x512_S512x512_S1x512_1_1_0_0_n_n.contr.Idx) :
    (dot_S1x512_S512x512_S1x512_1_1_0_0_n_n.lhsIdx j c 0).val = (j 0).val := by
  unfold DotDims.lhsIdx
  rw [dif_neg (show ¬(0 : Fin S1x512.rank) ∈ dot_S1x512_S512x512_S1x512_1_1_0_0_n_n.lhsBatch by decide), dif_pos (show (0 : Fin S1x512.rank) ∈ dot_S1x512_S512x512_S1x512_1_1_0_0_n_n.lhsNonContracting by decide)]
  rfl
theorem dotQ_r0 (j : S1x512.Idx) (c : dot_S1x512_S512x512_S1x512_1_1_0_0_n_n.contr.Idx) :
    (dot_S1x512_S512x512_S1x512_1_1_0_0_n_n.rhsIdx j c 0).val = (j 1).val := by
  unfold DotDims.rhsIdx
  rw [dif_neg (show ¬(0 : Fin S512x512.rank) ∈ dot_S1x512_S512x512_S1x512_1_1_0_0_n_n.rhsBatch by decide), dif_pos (show (0 : Fin S512x512.rank) ∈ dot_S1x512_S512x512_S1x512_1_1_0_0_n_n.rhsNonContracting by decide)]
  rfl
theorem dotV_l0 (j : S1x1024.Idx) (c : dot_S1x512_S1024x512_S1x1024_1_1_0_0_n_n.contr.Idx) :
    (dot_S1x512_S1024x512_S1x1024_1_1_0_0_n_n.lhsIdx j c 0).val = (j 0).val := by
  unfold DotDims.lhsIdx
  rw [dif_neg (show ¬(0 : Fin S1x512.rank) ∈ dot_S1x512_S1024x512_S1x1024_1_1_0_0_n_n.lhsBatch by decide), dif_pos (show (0 : Fin S1x512.rank) ∈ dot_S1x512_S1024x512_S1x1024_1_1_0_0_n_n.lhsNonContracting by decide)]
  rfl
theorem dotV_r0 (j : S1x1024.Idx) (c : dot_S1x512_S1024x512_S1x1024_1_1_0_0_n_n.contr.Idx) :
    (dot_S1x512_S1024x512_S1x1024_1_1_0_0_n_n.rhsIdx j c 0).val = (j 1).val := by
  unfold DotDims.rhsIdx
  rw [dif_neg (show ¬(0 : Fin S1024x512.rank) ∈ dot_S1x512_S1024x512_S1x1024_1_1_0_0_n_n.rhsBatch by decide), dif_pos (show (0 : Fin S1024x512.rank) ∈ dot_S1x512_S1024x512_S1x1024_1_1_0_0_n_n.rhsNonContracting by decide)]
  rfl

/-! ## The feature product -/

/-- The feature product at `(p, h)`: feature row `p` of the block against weight row `h`. -/
theorem featProduct_apply (X : Vec Ideal S1x1024x1024 .f32) (W : Vec Ideal S512x1024 .f32) (p : Fin 1024) (h : Fin 512) :
    k0_pay1 (F := Ideal) X W (ix2 p h) = ∑ k : Fin 1024, X (ix3 (0 : Fin 1) p k) * W (ix2 h k) := by
  unfold k0_pay1
  refine (LibMatmulNT.matmul_zero_apply dot_S1024x1024_S512x1024_S1024x512_1_1_0_0_n_n rfl rfl rfl rfl dotF_l0 dotF_r0 none _ _ p h).trans ?_
  refine Finset.sum_congr rfl fun k _ => ?_
  show shapeCast S1024x1024 X shapeCasts_S1x1024x1024_S1024x1024 (ix2 p k) * W (ix2 h k) = _
  rw [shapeCast_1ab_ab_apply]

/-! ## The body's intermediate values, named -/

/-- The query row against the query weights, `[1, 512]`. -/
def queryProduct (Q : Vec Ideal S1x1x512 .f32) (Wq : Vec Ideal S512x512 .f32) : FVec Ideal S1x512 .f32 :=
  matmul dot_S1x512_S512x512_S1x512_1_1_0_0_n_n none (truncf .bf16 (shapeCast S1x512 Q shapeCasts_S1x1x512_S1x512) bitsLt_bf16_f32)
    (truncf .bf16 Wq bitsLt_bf16_f32) (constant S1x512 .f32 0x00000000#32)

/-- The hidden activations of the block's positions, `[1024, 512]`. -/
def hiddenBlock (X : Vec Ideal S1x1024x1024 .f32) (W : Vec Ideal S512x1024 .f32) (Q : Vec Ideal S1x1x512 .f32) (Wq : Vec Ideal S512x512 .f32) :
    FVec Ideal S1024x512 .f32 :=
  tanh (addf (k0_pay1 X W) (broadcastTo S1024x512 (queryProduct Q Wq) broadcasts_S1x512_S1024x512))

/-- The scores of the block's positions, `[1, 1024]`. -/
def scoreRow (X : Vec Ideal S1x1024x1024 .f32) (W : Vec Ideal S512x1024 .f32) (Q : Vec Ideal S1x1x512 .f32) (Wq : Vec Ideal S512x512 .f32)
    (V : Vec Ideal S1x1x512 .f32) : FVec Ideal S1x1024 .f32 :=
  matmul dot_S1x512_S1024x512_S1x1024_1_1_0_0_n_n none (truncf .bf16 (shapeCast S1x512 V shapeCasts_S1x1x512_S1x512) bitsLt_bf16_f32)
    (truncf .bf16 (hiddenBlock X W Q Wq) bitsLt_bf16_f32) (constant S1x1024 .f32 0x00000000#32)

/-- The second stored value is the scores through the hyperbolic tangent, times the splat of ten, with a unit axis added. -/
theorem logitStore_eq (X : Vec Ideal S1x1024x1024 .f32) (W : Vec Ideal S512x1024 .f32) (Q : Vec Ideal S1x1x512 .f32) (Wq : Vec Ideal S512x512 .f32)
    (V : Vec Ideal S1x1x512 .f32) :
    k0_pay3 (F := Ideal) X W Q Wq V
      = shapeCast S1x1x1024 (mulf (broadcast S1x1024 (Scalar.ofBits (F := Ideal) .f32 0x41200000#32)) (tanh (scoreRow X W Q Wq V))) shapeCasts_S1x1024_S1x1x1024 := rfl

/-- The query product at `(0, h)`: the query row against query-weight row `h`. -/
theorem queryProduct_apply (Q : Vec Ideal S1x1x512 .f32) (Wq : Vec Ideal S512x512 .f32) (u : Fin 1) (h : Fin 512) :
    queryProduct Q Wq (ix2 u h) = ∑ k : Fin 512, Q (ix3 (0 : Fin 1) u k) * Wq (ix2 h k) := by
  unfold queryProduct
  refine (LibMatmulNT.matmul_zero_apply dot_S1x512_S512x512_S1x512_1_1_0_0_n_n rfl rfl rfl rfl dotQ_l0 dotQ_r0 none _ _ u h).trans ?_
  refine Finset.sum_congr rfl fun k _ => ?_
  show shapeCast S1x512 Q shapeCasts_S1x1x512_S1x512 (ix2 u k) * Wq (ix2 h k) = _
  rw [shapeCast_1ab_ab_apply]

/-- The hidden activation at `(p, h)`. -/
theorem hiddenBlock_apply (X : Vec Ideal S1x1024x1024 .f32) (W : Vec Ideal S512x1024 .f32) (Q : Vec Ideal S1x1x512 .f32) (Wq : Vec Ideal S512x512 .f32)
    (p : Fin 1024) (h : Fin 512) :
    hiddenBlock X W Q Wq (ix2 p h)
      = Ideal.tanh ((∑ k : Fin 1024, X (ix3 (0 : Fin 1) p k) * W (ix2 h k)) + ∑ k : Fin 512, Q (ix3 (0 : Fin 1) (0 : Fin 1) k) * Wq (ix2 h k)) := by
  show Ideal.tanh (k0_pay1 (F := Ideal) X W (ix2 p h) + broadcastTo S1024x512 (queryProduct Q Wq) broadcasts_S1x512_S1024x512 (ix2 p h)) = _
  rw [featProduct_apply, broadcastTo_1b_ab_apply, queryProduct_apply]

/-- The score at `(0, p)`: the scoring vector against hidden row `p`. -/
theorem scoreRow_apply (X : Vec Ideal S1x1024x1024 .f32) (W : Vec Ideal S512x1024 .f32) (Q : Vec Ideal S1x1x512 .f32) (Wq : Vec Ideal S512x512 .f32)
    (V : Vec Ideal S1x1x512 .f32) (u : Fin 1) (p : Fin 1024) :
    scoreRow X W Q Wq V (ix2 u p) = ∑ h : Fin 512, V (ix3 (0 : Fin 1) u h) * hiddenBlock X W Q Wq (ix2 p h) := by
  unfold scoreRow
  refine (LibMatmulNT.matmul_zero_apply dot_S1x512_S1024x512_S1x1024_1_1_0_0_n_n rfl rfl rfl rfl dotV_l0 dotV_r0 none _ _ u p).trans ?_
  refine Finset.sum_congr rfl fun h _ => ?_
  show shapeCast S1x512 V shapeCasts_S1x1x512_S1x512 (ix2 u h) * hiddenBlock X W Q Wq (ix2 p h) = _
  rw [shapeCast_1ab_ab_apply]

/-- The second stored value at `(0, 0, p)`: ten times the hyperbolic tangent of position `p`'s score. -/
theorem logitStore_apply (X : Vec Ideal S1x1024x1024 .f32) (W : Vec Ideal S512x1024 .f32) (Q : Vec Ideal S1x1x512 .f32) (Wq : Vec Ideal S512x512 .f32)
    (V : Vec Ideal S1x1x512 .f32) (u0 u1 : Fin 1) (p : Fin 1024) :
    k0_pay3 (F := Ideal) X W Q Wq V (ix3 u0 u1 p)
      = Ideal.ofBits .f32 0x41200000#32 * Ideal.tanh (∑ h : Fin 512, V (ix3 (0 : Fin 1) u1 h) * hiddenBlock X W Q Wq (ix2 p h)) := by
  rw [logitStore_eq, shapeCast_ab_1ab_apply]
  show Ideal.ofBits .f32 0x41200000#32 * Ideal.tanh (scoreRow X W Q Wq V (ix2 u1 p)) = _
  rw [scoreRow_apply]

end Cert.KernelIdeal.Attention

end
-- ==== Proof.KernelPoint.lean ====
/-
  The body's two stored values at a grid point are the specification at the array position under the block.

  Stated over variables: `X, W, Q, Wq, V` stand for the five blocks the body holds and `x, wf, q, wq, v` for the whole
  arrays.  If the feature block's row `p` is row `(b, n)` of the features, the query block is the query row of batch
  `b`, and the weight and scoring blocks are the whole arrays, then the first stored value at `(0, p, r)` is the projected
  feature at `(b, n, h)` (`r` the row of the weight block that is row `h` of the weights) and the second at `(0, 0, p)`
  is the clipped logit at `(b, n)`.
-/
import proofs.«111099_j21406117003362_1_alg».proof.Proof.KernelPayload
import proofs.«111099_j21406117003362_1_alg».proof.Proof.Spec

noncomputable section

open scoped BigOperators

namespace Cert.KernelIdeal.Attention

open Cert.KernelIdeal Cert.KernelIdeal.Gen Cert.AdditiveAttention Idealize.ShloMosaic Idealize.ShloMosaic.ValueIdx

/-- The first stored value at a block index whose position coordinate is `p` and whose unit coordinate is `r`. -/
theorem featStore_block (X : Vec Ideal S1x1024x1024 .f32) (W : Vec Ideal S512x1024 .f32) (x : Feat) (wf : WFeat)
    (b : Fin 16) (n : Fin 4096) (h : Fin 512) (p : Fin 1024) (r : Fin 512)
    (hX : ∀ k : Fin 1024, X (ix3 (0 : Fin 1) p k) = x (ix3 b n k))
    (hW : ∀ k : Fin 1024, W (ix2 r k) = wf (ix2 h k))
    (y : S1x1024x512.Idx) (hy1 : (y 1).val = p.val) (hy2 : (y 2).val = r.val) :
    k0_pay2 (F := Ideal) X W y = projF x wf b n h := by
  have hy0 : (y 0).val < 1 := (y 0).isLt
  have ey : y = ix3 (⟨(y 0).val, hy0⟩ : Fin 1) p r := funext fun a => Fin.ext (by
    match a with | ⟨0, _⟩ => rfl | ⟨1, _⟩ => exact hy1 | ⟨2, _⟩ => exact hy2)
  refine (congrArg (k0_pay2 (F := Ideal) X W) ey).trans ?_
  show shapeCast S1x1024x512 (k0_pay1 (F := Ideal) X W) shapeCasts_S1024x512_S1x1024x512 (ix3 _ p r) = _
  rw [shapeCast_ab_1ab_apply, featProduct_apply]
  unfold projF
  exact Finset.sum_congr rfl fun k _ => by rw [hX k, hW k]

/-- The second stored value at a block index whose position coordinate is `p`. -/
theorem logitStore_block (X : Vec Ideal S1x1024x1024 .f32) (W : Vec Ideal S512x1024 .f32) (Q : Vec Ideal S1x1x512 .f32)
    (Wq : Vec Ideal S512x512 .f32) (V : Vec Ideal S1x1x512 .f32) (x : Feat) (q : Query) (wf : WFeat) (wq : WQuery) (v : ScoreVec)
    (b : Fin 16) (n : Fin 4096) (p : Fin 1024)
    (hX : ∀ k : Fin 1024, X (ix3 (0 : Fin 1) p k) = x (ix3 b n k))
    (hW : ∀ (h : Fin 512) (k : Fin 1024), W (ix2 h k) = wf (ix2 h k))
    (hQ : ∀ k : Fin 512, Q (ix3 (0 : Fin 1) (0 : Fin 1) k) = q (ix3 b (0 : Fin 1) k))
    (hWq : ∀ (h k : Fin 512), Wq (ix2 h k) = wq (ix2 h k))
    (hV : ∀ h : Fin 512, V (ix3 (0 : Fin 1) (0 : Fin 1) h) = v (ix3 (0 : Fin 1) (0 : Fin 1) h))
    (y : S1x1x1024.Idx) (hy : (y 2).val = p.val) :
    k0_pay3 (F := Ideal) X W Q Wq V y = logit x q wf wq v b n := by
  have hy0 : (y 0).val < 1 := (y 0).isLt
  have hy1 : (y 1).val < 1 := (y 1).isLt
  have ey : y = ix3 (⟨(y 0).val, hy0⟩ : Fin 1) (0 : Fin 1) p := funext fun a => Fin.ext (by
    match a with
    | ⟨0, _⟩ => rfl
    | ⟨1, _⟩ => show (y 1).val = 0; omega
    | ⟨2, _⟩ => exact hy)
  refine (congrArg (k0_pay3 (F := Ideal) X W Q Wq V) ey).trans ?_
  rw [logitStore_apply]
  unfold logit score AdditiveAttention.hidden projF projQ
  refine congrArg (fun s => Ideal.ofBits .f32 0x41200000#32 * Ideal.tanh s) (Finset.sum_congr rfl fun h _ => ?_)
  rw [hiddenBlock_apply, hV h]
  refine congrArg (fun s => v (ix3 (0 : Fin 1) (0 : Fin 1) h) * Ideal.tanh s) ?_
  refine congrArg₂ (· + ·) (Finset.sum_congr rfl fun k _ => ?_) (Finset.sum_congr rfl fun k _ => ?_)
  · rw [hX k, hW h k]
  · rw [hQ k, hWq h k]

end Cert.KernelIdeal.Attention

end
-- ==== Proof.KernelBlocks.lean ====
/-
  From blocks to arrays: what the kernel's two result arrays hold after the run.

  The grid has 64 points `(b, s)`, 16 batches by 4 position tiles of 1024.  At a point the feature block is rows
  `1024 s … 1024 s + 1023` of batch `b`, the query block is the batch's one query row, and the weights and the scoring
  vector are held whole.  The point writes back block `(b, s, 0)` of the projected features (`[1, 1024, 512]`) and block
  `(b, 0, s)` of the logits (`[1, 1, 1024]`).  Each written block is the specification's array read through the block,
  the blocks of each result tile its array (the tile of position `n` is `n / 1024`), so each result array is the
  specification's.
-/
import proofs.«111099_j21406117003362_1_alg».proof.Proof.Gen.KernelIdeal.Value
import proofs.«111099_j21406117003362_1_alg».proof.Proof.KernelPoint

set_option maxRecDepth 16384

noncomputable section

open scoped BigOperators

namespace Cert.KernelIdeal.Attention

open Cert.KernelIdeal Cert.KernelIdeal.Gen Cert.AdditiveAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The index maps, decided over the grid -/

/-- At every point: the feature block sits at the projected-feature block's batch and tile; the query block at its
    batch; the weights and the scoring vector at the origin; the logit block at the same batch and tile, the tile on
    its last axis. -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_6.index t (0 : Fin 3) = win0_5.index t (0 : Fin 3) ∧ win0_6.index t (1 : Fin 3) = 0
    ∧ win0_6.index t (2 : Fin 3) = win0_5.index t (1 : Fin 3)
    ∧ win0_5.index t (0 : Fin 3) < 16 ∧ win0_5.index t (1 : Fin 3) < 4 :=
  (by decide +kernel : ∀ t : Fin grid0.N, _)

/-- Every (batch, tile) is some point's projected-feature block. -/
theorem index_ontoF : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-- Every (batch, tile) is some point's logit block. -/
theorem index_ontoL : ∀ (q0 : Fin 16) (q1 : Fin 4), ∃ t : Fin cfg0.N, win0_6.index t = ![q0.val, 0, q1.val] :=
  (by decide +kernel : ∀ (q0 : Fin 16) (q1 : Fin 4), ∃ t : Fin grid0.N, win0_6.index t = ![q0.val, 0, q1.val])

/-! ## The projected features -/

/-- What point `t` writes back to the first result is block `t` of the projected features of the argument arrays. -/
theorem flushedF_eq (c : Dev nD) (t : Fin cfg0.N) :
    (dats m 0 c).flushed 5 t = ((cfg0.win 5).blk t).view.read (Elt Ideal) (projected (V m c main_arg0) (V m c main_arg2)) := by
  rw [Value.flushed5]
  unfold out0_5
  rw [View.canon_unit_zero zero3]
  simp only [View.ld_unit_zero (S := S1x1024x1024) zero3, View.ld_unit_zero (S := S512x1024) zero2]
  obtain ⟨e00, e01, e02, e52, e10, e11, e12, e20, e21, e30, e31, e40, e41, e42, e60, e61, e62, b0, b1⟩ := index_facts t
  funext j
  have hj0 : (j 0).val < 1 := (j 0).isLt
  have hj1 : (j 1).val < 1024 := (j 1).isLt
  have hj2 : (j 2).val < 512 := (j 2).isLt
  show k0_pay2 (F := Ideal) (iblk m c 0 t) (iblk m c 2 t) j
    = projF (V m c main_arg0) (V m c main_arg2) ((((cfg0.win 5).blk t).view.emb j) 0) ((((cfg0.win 5).blk t).view.emb j) 1)
        ((((cfg0.win 5).blk t).view.emb j) 2)
  refine featStore_block (iblk m c 0 t) (iblk m c 2 t) (V m c main_arg0) (V m c main_arg2) _ _ _ ⟨(j 1).val, hj1⟩ ⟨(j 2).val, hj2⟩
    (fun k => ?_) (fun k => ?_) j rfl rfl
  · show V m c main_arg0 (((cfg0.win 0).blk t).view.emb (ix3 (0 : Fin 1) (⟨(j 1).val, hj1⟩ : Fin 1024) k)) = V m c main_arg0 (ix3 _ _ k)
    refine congrArg (V m c main_arg0) (funext fun a => Fin.ext ?_)
    match a with
    | ⟨0, _⟩ => show win0_0.index t (0 : Fin 3) * 1 + 1 * 0 = win0_5.index t (0 : Fin 3) * 1 + 1 * (j 0).val; omega
    | ⟨1, _⟩ => show win0_0.index t (1 : Fin 3) * 1024 + 1 * (j 1).val = win0_5.index t (1 : Fin 3) * 1024 + 1 * (j 1).val; omega
    | ⟨2, _⟩ => show win0_0.index t (2 : Fin 3) * 1024 + 1 * k.val = k.val; omega
  · show V m c main_arg2 (((cfg0.win 2).blk t).view.emb (ix2 (⟨(j 2).val, hj2⟩ : Fin 512) k)) = V m c main_arg2 (ix2 _ k)
    refine congrArg (V m c main_arg2) (funext fun a => Fin.ext ?_)
    match a with
    | ⟨0, _⟩ => show win0_2.index t (0 : Fin 2) * 512 + 1 * (j 2).val = win0_5.index t (2 : Fin 3) * 512 + 1 * (j 2).val; omega
    | ⟨1, _⟩ => show win0_2.index t (1 : Fin 2) * 1024 + 1 * k.val = k.val; omega

/-- An index of the first result is in point `t`'s block iff each coordinate is in the block's range on its axis. -/
theorem mem_blkF (t : Fin cfg0.N) (i : S16x4096x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v0_0).slice (win0_5.rect t)).set ↔ _
  rw [View.set_slice_whole, Rect.mem_set_unit]
  exact Iff.rfl

/-- Every index of the first result is in the block of the point of its batch and position tile. -/
theorem coverF (i : S16x4096x512.Idx) : ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 512 := (i 2).isLt
  obtain ⟨t, ht⟩ := index_ontoF ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blkF]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- The first result array after the run: the projected features of the argument arrays. -/
theorem finalF (c : Dev nD) :
    (dats m 0 c).arrAt 5 cfg0.N = projected (m ((c : Thread nD τ).loc main_arg0)) (m ((c : Thread nD τ).loc main_arg2)) :=
  (dats m 0 c).arrAt_eq_of_cover 5 (projected (V m c main_arg0) (V m c main_arg2)) (fun t _ => flushedF_eq m c t) coverF

/-! ## The logits -/

/-- What point `t` writes back to the second result is block `t` of the clipped logits of the argument arrays. -/
theorem flushedL_eq (c : Dev nD) (t : Fin cfg0.N) :
    (dats m 0 c).flushed 6 t = ((cfg0.win 6).blk t).view.read (Elt Ideal)
      (logits (V m c main_arg0) (V m c main_arg1) (V m c main_arg2) (V m c main_arg3) (V m c main_arg4)) := by
  rw [Value.flushed6]
  unfold out0_6
  rw [View.canon_unit_zero zero3]
  simp only [View.ld_unit_zero (S := S1x1024x1024) zero3, View.ld_unit_zero (S := S512x1024) zero2,
    View.ld_unit_zero (S := S1x1x512) zero3, View.ld_unit_zero (S := S512x512) zero2]
  obtain ⟨e00, e01, e02, e52, e10, e11, e12, e20, e21, e30, e31, e40, e41, e42, e60, e61, e62, b0, b1⟩ := index_facts t
  funext j
  have hj0 : (j 0).val < 1 := (j 0).isLt
  have hj1 : (j 1).val < 1 := (j 1).isLt
  have hj2 : (j 2).val < 1024 := (j 2).isLt
  show k0_pay3 (F := Ideal) (iblk m c 0 t) (iblk m c 2 t) (iblk m c 1 t) (iblk m c 3 t) (iblk m c 4 t) j
    = logit (V m c main_arg0) (V m c main_arg1) (V m c main_arg2) (V m c main_arg3) (V m c main_arg4)
        ((((cfg0.win 6).blk t).view.emb j) 0) ((((cfg0.win 6).blk t).view.emb j) 2)
  refine logitStore_block (iblk m c 0 t) (iblk m c 2 t) (iblk m c 1 t) (iblk m c 3 t) (iblk m c 4 t)
    (V m c main_arg0) (V m c main_arg1) (V m c main_arg2) (V m c main_arg3) (V m c main_arg4) _ _ ⟨(j 2).val, hj2⟩
    (fun k => ?_) (fun h k => ?_) (fun k => ?_) (fun h k => ?_) (fun h => ?_) j rfl
  · show V m c main_arg0 (((cfg0.win 0).blk t).view.emb (ix3 (0 : Fin 1) (⟨(j 2).val, hj2⟩ : Fin 1024) k)) = V m c main_arg0 (ix3 _ _ k)
    refine congrArg (V m c main_arg0) (funext fun a => Fin.ext ?_)
    match a with
    | ⟨0, _⟩ => show win0_0.index t (0 : Fin 3) * 1 + 1 * 0 = win0_6.index t (0 : Fin 3) * 1 + 1 * (j 0).val; omega
    | ⟨1, _⟩ => show win0_0.index t (1 : Fin 3) * 1024 + 1 * (j 2).val = win0_6.index t (2 : Fin 3) * 1024 + 1 * (j 2).val; omega
    | ⟨2, _⟩ => show win0_0.index t (2 : Fin 3) * 1024 + 1 * k.val = k.val; omega
  · show V m c main_arg2 (((cfg0.win 2).blk t).view.emb (ix2 h k)) = V m c main_arg2 (ix2 h k)
    refine congrArg (V m c main_arg2) (funext fun a => Fin.ext ?_)
    match a with
    | ⟨0, _⟩ => show win0_2.index t (0 : Fin 2) * 512 + 1 * h.val = h.val; omega
    | ⟨1, _⟩ => show win0_2.index t (1 : Fin 2) * 1024 + 1 * k.val = k.val; omega
  · show V m c main_arg1 (((cfg0.win 1).blk t).view.emb (ix3 (0 : Fin 1) (0 : Fin 1) k)) = V m c main_arg1 (ix3 _ (0 : Fin 1) k)
    refine congrArg (V m c main_arg1) (funext fun a => Fin.ext ?_)
    match a with
    | ⟨0, _⟩ => show win0_1.index t (0 : Fin 3) * 1 + 1 * 0 = win0_6.index t (0 : Fin 3) * 1 + 1 * (j 0).val; omega
    | ⟨1, _⟩ => show win0_1.index t (1 : Fin 3) * 1 + 1 * 0 = 0; omega
    | ⟨2, _⟩ => show win0_1.index t (2 : Fin 3) * 512 + 1 * k.val = k.val; omega
  · show V m c main_arg3 (((cfg0.win 3).blk t).view.emb (ix2 h k)) = V m c main_arg3 (ix2 h k)
    refine congrArg (V m c main_arg3) (funext fun a => Fin.ext ?_)
    match a with
    | ⟨0, _⟩ => show win0_3.index t (0 : Fin 2) * 512 + 1 * h.val = h.val; omega
    | ⟨1, _⟩ => show win0_3.index t (1 : Fin 2) * 512 + 1 * k.val = k.val; omega
  · show V m c main_arg4 (((cfg0.win 4).blk t).view.emb (ix3 (0 : Fin 1) (0 : Fin 1) h)) = V m c main_arg4 (ix3 (0 : Fin 1) (0 : Fin 1) h)
    refine congrArg (V m c main_arg4) (funext fun a => Fin.ext ?_)
    match a with
    | ⟨0, _⟩ => show win0_4.index t (0 : Fin 3) * 1 + 1 * 0 = 0; omega
    | ⟨1, _⟩ => show win0_4.index t (1 : Fin 3) * 1 + 1 * 0 = 0; omega
    | ⟨2, _⟩ => show win0_4.index t (2 : Fin 3) * 512 + 1 * h.val = h.val; omega

/-- An index of the second result is in point `t`'s block iff each coordinate is in the block's range on its axis. -/
theorem mem_blkL (t : Fin cfg0.N) (i : S16x1x4096.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v0_1).slice (win0_6.rect t)).set ↔ _
  rw [View.set_slice_whole, Rect.mem_set_unit]
  exact Iff.rfl

/-- Every index of the second result is in the block of the point of its batch and position tile. -/
theorem coverL (i : S16x1x4096.Idx) : ∃ t : Fin cfg0.N, (cfg0.win 6).flush t = true ∧ i ∈ ((cfg0.win 6).blk t).view.set := by
  have hi0 : (i 0).val < 16 := (i 0).isLt
  have hi1 : (i 1).val < 1 := (i 1).isLt
  have hi2 : (i 2).val < 4096 := (i 2).isLt
  obtain ⟨t, ht⟩ := index_ontoL ⟨(i 0).val, hi0⟩ ⟨(i 2).val / 1024, by omega⟩
  have q0 : win0_6.index t (0 : Fin 3) = (i 0).val := congrFun ht 0
  have q1 : win0_6.index t (1 : Fin 3) = 0 := congrFun ht 1
  have q2 : win0_6.index t (2 : Fin 3) = (i 2).val / 1024 := congrFun ht 2
  refine ⟨t, flush0_6 t, ?_⟩
  rw [mem_blkL]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; omega

/-- The second result array after the run: the clipped logits of the argument arrays. -/
theorem finalL (c : Dev nD) :
    (dats m 0 c).arrAt 6 cfg0.N = logits (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 6
    (logits (V m c main_arg0) (V m c main_arg1) (V m c main_arg2) (V m c main_arg3) (V m c main_arg4))
    (fun t _ => flushedL_eq m c t) coverL

/-! ## The run -/

/-- Every weakly fair execution of the idealized kernel terminates with the two result arrays at the specification of
    the argument arrays, the arguments unchanged. -/
theorem run : θ_run defs (onTc (τ := τ) (main (F := Ideal))) ⟨m, fun _ => 0, ρ⟩ fun r => ∀ c : Dev nD,
      r.2.mem ((c : Thread nD τ).loc main_v0_0) = projected (m ((c : Thread nD τ).loc main_arg0)) (m ((c : Thread nD τ).loc main_arg2))
      ∧ r.2.mem ((c : Thread nD τ).loc main_v0_1) = logits (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalF m c), (h c).2.1.trans (finalL m c), (h c).2.2⟩)
    (Value.run_blocks m ρ)

end Cert.KernelIdeal.Attention

end
-- ==== Proof.lean ====
/-
  A fused additive-attention kernel against its plain reference, equal on the extended reals.

  Both programs take features `x [16, 4096, 1024]`, a query `q [16, 1, 512]`, weights `wf [512, 1024]` and
  `wq [512, 512]` and a scoring vector `v [1, 1, 512]`, and return the projected features
  `pf (b, n, h) = ∑ k, x (b, n, k) * wf (h, k)` and the clipped logits
  `10 * tanh (∑ h, v (0, 0, h) * tanh (pf (b, n, h) + ∑ k, q (b, 0, k) * wq (h, k)))`   (Proof/Spec.lean).
  The kernel computes them tile by tile — 1024 positions of one batch per grid point, three matrix products that contract
  the last axis of both operands, its operands narrowed to a shorter float format first, which changes nothing on the
  extended reals — (Proof/KernelPayload.lean, KernelPoint.lean, KernelBlocks.lean); the reference by whole-array
  contractions, summing the scoring vector over its unit leading axis first and multiplying in the other order
  (Proof/RefSpec.lean).  The two agree by `0 + a = a` and the commutativity of the product, which hold at the infinities
  too, so the inputs' finiteness is never used.  The idealized kernel is the kernel's own text read on the extended reals:
  there is nothing to preserve.
-/
import proofs.«111099_j21406117003362_1_alg».proof.Defs
import proofs.«111099_j21406117003362_1_alg».proof.Proof.Gen.Kernel
import proofs.«111099_j21406117003362_1_alg».proof.Proof.Gen.Kernel.Skeleton
import proofs.«111099_j21406117003362_1_alg».proof.Proof.Gen.Kernel.Launch
import proofs.«111099_j21406117003362_1_alg».proof.Proof.Gen.Kernel.Points
import proofs.«111099_j21406117003362_1_alg».proof.Proof.Gen.Kernel.Frame
import proofs.«111099_j21406117003362_1_alg».proof.Proof.Gen.KernelIdeal
import proofs.«111099_j21406117003362_1_alg».proof.Proof.Gen.KernelIdeal.Skeleton
import proofs.«111099_j21406117003362_1_alg».proof.Proof.Gen.KernelIdeal.Launch
import proofs.«111099_j21406117003362_1_alg».proof.Proof.Gen.KernelIdeal.Points
import proofs.«111099_j21406117003362_1_alg».proof.Proof.Gen.KernelIdeal.Frame
import proofs.«111099_j21406117003362_1_alg».proof.Proof.Gen.ReferenceIdeal
import proofs.«111099_j21406117003362_1_alg».proof.Proof.Gen.KernelIdeal.Value
import proofs.«111099_j21406117003362_1_alg».proof.Proof.Gen.ReferenceIdeal.Run
import proofs.«111099_j21406117003362_1_alg».proof.Proof.Gen.ReferenceIdeal.Read
import proofs.«111099_j21406117003362_1_alg».proof.Proof.Gen.Pre_finite_inputs
import proofs.«111099_j21406117003362_1_alg».proof.Proof.RefSpec
import proofs.«111099_j21406117003362_1_alg».proof.Proof.KernelBlocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the projected features and the clipped logits of
    those arguments: the kernel's run (block by block) and the reference's (operation by operation) state the same two
    arrays. -/
theorem algebraic : Cert.algebraic_KernelIdeal_ReferenceIdeal := by
  intro m ρ m' ρ' _ hagree
  refine ⟨_, _, Cert.KernelIdeal.Attention.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v0_eq, Cert.ReferenceIdeal.Attention.feat_eq, (hagree c).1, (hagree c).2.2.1]
  · rw [Cert.ReferenceIdeal.Read.val_main_v10_eq, Cert.ReferenceIdeal.Attention.logits_eq, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
